-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S128x2048 : Shape := ⟨2, ![128, 2048]⟩
abbrev S8x128 : Shape := ⟨2, ![8, 128]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  main_v18

def fn {F : FTy → Type} [FloatOps F] (main_arg0 : FVec F S4x8192x2048 .f32) (main_arg1 : FVec F S128x2048 .f32) (main_arg2 : FVec F S128x2048 .f32) (main_arg3 : FVec F S8x128 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_v13 main_v16
-- ==== Kernel.lean ====
abbrev S4x8192x2048 : Shape := ⟨3, ![4, 8192, 2048]⟩
abbrev S128x2048 : Shape := ⟨2, ![128, 2048]⟩
abbrev S8x128 : Shape := ⟨2, ![8, 128]⟩
abbrev S2048x128 : Shape := ⟨2, ![2048, 128]⟩
abbrev S2048x256 : Shape := ⟨2, ![2048, 256]⟩
abbrev S4x1024x128 : Shape := ⟨3, ![4, 1024, 128]⟩
abbrev S1x1024x2048 : Shape := ⟨3, ![1, 1024, 2048]⟩
abbrev S1x128x128 : Shape := ⟨3, ![1, 128, 128]⟩
abbrev S1024x2048 : Shape := ⟨2, ![1024, 2048]⟩
abbrev S1024x256 : Shape := ⟨2, ![1024, 256]⟩
abbrev S1024x128 : Shape := ⟨2, ![1024, 128]⟩
abbrev S128x8x128 : Shape := ⟨3, ![128, 8, 128]⟩
abbrev S1x8x128 : Shape := ⟨3, ![1, 8, 128]⟩
abbrev S128x128 : Shape := ⟨2, ![128, 128]⟩
abbrev S128x1x128 : Shape := ⟨3, ![128, 1, 128]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S128x2048, .f32⟩
  | .hbm, ⟨2, _⟩ => ⟨S128x2048, .f32⟩
  | .hbm, ⟨3, _⟩ => ⟨S8x128, .f32⟩
  | .hbm, ⟨4, _⟩ => ⟨S2048x128, .f32⟩
  | .hbm, ⟨5, _⟩ => ⟨S2048x128, .f32⟩
  | .hbm, ⟨6, _⟩ => ⟨S2048x256, .f32⟩
  | .hbm, ⟨7, _⟩ => ⟨S4x1024x128, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x256, .f32⟩
  | .local _ .vmem, ⟨3, _⟩ => ⟨S8x128, .f32⟩
  | .local _ .vmem, ⟨4, _⟩ => ⟨S1x128x128, .f32⟩
  | .local _ .vmem, ⟨5, _⟩ => ⟨S1x128x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S128x2048_S2048x128_1_0 : S128x2048.Transposes [1, 0] S2048x128
  concatenates_S2048x128_S2048x128_S2048x256_d1 : Shape.Concatenates [S2048x128, S2048x128] S2048x256 1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S1024x256_o0_0_S1024x128 : S1024x256.Slices ![0, 0] S1024x128
  slices_S1024x256_o0_128_S1024x128 : S1024x256.Slices ![0, 128] S1024x128
  shapeCasts_S1024x128_S128x8x128 : S1024x128.ShapeCasts S128x8x128
  inb_S8x128_S8x128_0_0 : ∀ a, (![0, 0] : Fin 2 → Nat) a + S8x128.size a ≤ S8x128.size a
  h_S8x128 : 0 < S8x128.numel
  shapeCasts_S8x128_S1x8x128 : S8x128.ShapeCasts S1x8x128
  broadcasts_S1x8x128_S128x8x128 : S1x8x128.Broadcasts S128x8x128
  reduces_S128x8x128_S128x128 : S128x8x128.Reduces [1] S128x128
  shapeCasts_S128x128_S128x1x128 : S128x128.ShapeCasts S128x1x128
  broadcasts_S128x1x128_S128x8x128 : S128x1x128.Broadcasts S128x8x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x8192x2048.size a
  hwx0_0 : ∀ i : grid0.Coords, EltTy.bits .f32 = 32 ∨ (Rect.block (s := S4x8192x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S4x1024x128.size a
  hwx0_3 : ∀ i : grid0.Coords, EltTy.bits .f32 = 32 ∨ (Rect.block (s := S4x1024x128) S1x128x128.size (cc0_transform_3 i) (hinb0_3 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S128x2048 : Shape := ⟨2, ![128, 2048]⟩
abbrev S8x128 : Shape := ⟨2, ![8, 128]⟩
abbrev S4x8192x128 : Shape := ⟨3, ![4, 8192, 128]⟩
abbrev S4x1024x8x128 : Shape := ⟨4, ![4, 1024, 8, 128]⟩
abbrev S1x1x8x128 : Shape := ⟨4, ![1, 1, 8, 128]⟩
abbrev S_ : Shape := ⟨0, ![]⟩
abbrev S4x1024x128 : Shape := ⟨3, ![4, 1024, 128]⟩
abbrev S4x1024x1x128 : Shape := ⟨4, ![4, 1024, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S128x2048, .f32⟩
  | .hbm, ⟨2, _⟩ => ⟨S128x2048, .f32⟩
  | .hbm, ⟨3, _⟩ => ⟨S8x128, .f32⟩
  | .hbm, ⟨4, _⟩ => ⟨S4x8192x128, .f32⟩
  | .hbm, ⟨5, _⟩ => ⟨S4x8192x128, .f32⟩
  | .hbm, ⟨6, _⟩ => ⟨S4x1024x8x128, .f32⟩
  | .hbm, ⟨7, _⟩ => ⟨S4x1024x8x128, .f32⟩
  | .hbm, ⟨8, _⟩ => ⟨S1x1x8x128, .f32⟩
  | .hbm, ⟨9, _⟩ => ⟨S4x1024x8x128, .f32⟩
  | .hbm, ⟨10, _⟩ => ⟨S4x1024x8x128, .f32⟩
  | .hbm, ⟨11, _⟩ => ⟨S_, .f32⟩
  | .hbm, ⟨12, _⟩ => ⟨S4x1024x128, .f32⟩
  | .hbm, ⟨13, _⟩ => ⟨S_, .f32⟩
  | .hbm, ⟨14, _⟩ => ⟨S4x1024x128, .f32⟩
  | .hbm, ⟨15, _⟩ => ⟨S4x1024x128, .f32⟩
  | .hbm, ⟨16, _⟩ => ⟨S4x1024x1x128, .f32⟩
  | .hbm, ⟨17, _⟩ => ⟨S4x1024x8x128, .f32⟩
  | .hbm, ⟨18, _⟩ => ⟨S4x1024x8x128, .f32⟩
  | .hbm, ⟨19, _⟩ => ⟨S4x1024x8x128, .f32⟩
  | .hbm, ⟨20, _⟩ => ⟨S_, .f32⟩
  | .hbm, ⟨21, _⟩ => ⟨S4x1024x128, .f32⟩
  | .hbm, ⟨22, _⟩ => ⟨S4x1024x1x128, .f32⟩
  | .hbm, ⟨23, _⟩ => ⟨S4x1024x8x128, .f32⟩
  | .hbm, ⟨24, _⟩ => ⟨S4x1024x8x128, .f32⟩
  | .hbm, ⟨25, _⟩ => ⟨S4x1024x8x128, .f32⟩
  | .hbm, ⟨26, _⟩ => ⟨S_, .f32⟩
  | .hbm, ⟨27, _⟩ => ⟨S4x1024x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S4x8192x128_S4x1024x8x128 : S4x8192x128.ShapeCasts S4x1024x8x128
  bcast_S8x128_S1x1x8x128_2_3 : S8x128.BroadcastsInDim S1x1x8x128 (![2, 3] : Fin 2 → Fin S1x1x8x128.rank)
  bcast_S1x1x8x128_S4x1024x8x128_0_1_2_3 : S1x1x8x128.BroadcastsInDim S4x1024x8x128 (![0, 1, 2, 3] : Fin 4 → Fin S4x1024x8x128.rank)
  reducesTo_S4x1024x8x128_S4x1024x128_d2 : S4x1024x8x128.ReducesTo [2] S4x1024x128
  h_S_ : 0 < S_.numel
  bcast_S_S4x1024x128 : S_.BroadcastsInDim S4x1024x128 (![] : Fin 0 → Fin S4x1024x128.rank)
  bcast_S4x1024x128_S4x1024x1x128_0_1_3 : S4x1024x128.BroadcastsInDim S4x1024x1x128 (![0, 1, 3] : Fin 3 → Fin S4x1024x1x128.rank)
  bcast_S4x1024x1x128_S4x1024x8x128_0_1_2_3 : S4x1024x1x128.BroadcastsInDim S4x1024x8x128 (![0, 1, 2, 3] : Fin 4 → Fin S4x1024x8x128.rank)
  dot_S4x8192x2048_S128x2048_S4x8192x128_2_1_01_0_n_n_wf : DotDims.WF S4x8192x2048 S128x2048 S4x8192x128 [2] [1] [0, 1] [0] [] []

variable [Facts₀]

def dot_S4x8192x2048_S128x2048_S4x8192x128_2_1_01_0_n_n : DotDims S4x8192x2048 S128x2048 S4x8192x128 where
  lhsContracting := [2]
  rhsContracting := [1]
  lhsNonContracting := [0, 1]
  rhsNonContracting := [0]
  lhsBatch := []
  rhsBatch := []
  wf := dot_S4x8192x2048_S128x2048_S4x8192x128_2_1_01_0_n_n_wf

class Facts : Prop extends Facts₀ where

variable [Facts]
-- ==== Proof.Window.lean ====
/-
  The mathematics both programs compute, stated once over plain index functions.

  For a batch b, a window n of eight consecutive sequence positions 8n, …, 8n+7 and a head coordinate k:
    c j = Σ_d h[b, 8n+j, d] · w_kv[k, d]                      (the value projection)
    z j = Σ_d h[b, 8n+j, d] · w_z[k, d] + bias[j, k]          (the logit projection plus the positional bias)
    out[b, n, k] = Σ_j softmax_j(z) · c j
  where the softmax is taken as both programs take it: subtract the window's maximum (started from -∞ and
  joined once more with -∞), exponentiate, divide by the sum of the exponentials.  `mix` is that last line
  over the extended reals, operation for operation; no law of arithmetic is applied to it anywhere: both
  programs are shown to be `mix` of the same two families `z` and `c`.
-/
import Idealize.ShloMosaic.PureOps.Ideal
import Idealize.ShloMosaic.PureOps.Ideal.Laws
import Idealize.ShloMosaic.Lib.ValueIdx

noncomputable section

namespace Cert.Window

open Idealize.ShloMosaic Idealize.ShloMosaic.ValueIdx

/-- The f32 pattern of -∞, the value both maxima start from. -/
abbrev ninf : EReal := Ideal.ofBits .f32 0xFF800000#32

/-- The maximum of a window of eight logits, as computed: the fold of `max` from -∞, joined with -∞. -/
def peak (z : Fin 8 → EReal) : EReal := max ninf ((Finset.univ : Finset (Fin 8)).fold max ninf z)

/-- The exponential of a logit shifted by the window's maximum. -/
def ex (z : Fin 8 → EReal) (j : Fin 8) : EReal := Ideal.exp (z j - peak z)

/-- The softmax-weighted sum of eight values `c` under eight logits `z`. -/
def mix (z c : Fin 8 → EReal) : EReal := ∑ j : Fin 8, Ideal.div (ex z j) (∑ j' : Fin 8, ex z j') * c j

/-- Sequence position `8n + j`: member `j` of window `n`. -/
def row (n : Fin 1024) (j : Fin 8) : Fin 8192 := ⟨8 * n.val + j.val, by have := n.isLt; have := j.isLt; omega⟩

/-! ## How the kernel tiles the same arrays

The kernel handles one batch `bi` and one stretch `si` of 1024 consecutive positions at a time — 128 whole windows —
against both weight matrices side by side as the columns of one [2048, 256] matrix. -/

/-- Row `8p + j` of a 1024-row stretch: member `j` of the stretch's window `p`. -/
def brow (p : Fin 128) (j : Fin 8) : Fin 1024 := ⟨8 * p.val + j.val, by have := p.isLt; have := j.isLt; omega⟩
/-- Row `r` of stretch `si` is sequence position `1024 si + r`. -/
def srow (si : Fin 8) (r : Fin 1024) : Fin 8192 := ⟨si.val * 1024 + r.val, by have := si.isLt; have := r.isLt; omega⟩
/-- Window `p` of stretch `si` is window `128 si + p` of the sequence. -/
def wrow (si : Fin 8) (p : Fin 128) : Fin 1024 := ⟨si.val * 128 + p.val, by have := si.isLt; have := p.isLt; omega⟩
/-- Column `k` of the side-by-side weights: the value half. -/
def colL (k : Fin 128) : Fin 256 := ⟨k.val, by have := k.isLt; omega⟩
/-- Column `128 + k`: the logit half. -/
def colR (k : Fin 128) : Fin 256 := ⟨128 + k.val, by have := k.isLt; omega⟩

/-- Member `j` of window `p` of stretch `si` is member `j` of the sequence's window `128 si + p`. -/
theorem row_wrow (si : Fin 8) (p : Fin 128) (j : Fin 8) : row (wrow si p) j = srow si (brow p j) :=
  Fin.ext (by show 8 * (si.val * 128 + p.val) + j.val = si.val * 1024 + (8 * p.val + j.val); omega)

/-! ## The result -/

/-- One projection: row (b, s) of `h` against row `k` of a weight matrix stored [out, in]. -/
def proj (h : (⟨3, ![4, 8192, 2048]⟩ : Shape).Idx → EReal) (w : (⟨2, ![128, 2048]⟩ : Shape).Idx → EReal)
    (b : Fin 4) (s : Fin 8192) (k : Fin 128) : EReal :=
  ∑ d : Fin 2048, h (ix3 b s d) * w (ix2 k d)

/-- The result at (b, n, k). -/
def outAt (h : (⟨3, ![4, 8192, 2048]⟩ : Shape).Idx → EReal) (wkv wz : (⟨2, ![128, 2048]⟩ : Shape).Idx → EReal)
    (bias : (⟨2, ![8, 128]⟩ : Shape).Idx → EReal) (b : Fin 4) (n : Fin 1024) (k : Fin 128) : EReal :=
  mix (fun j => proj h wz b (row n j) k + bias (ix2 j k)) (fun j => proj h wkv b (row n j) k)

/-- The whole result array as one function of the four argument arrays. -/
def out (h : (⟨3, ![4, 8192, 2048]⟩ : Shape).Idx → EReal) (wkv wz : (⟨2, ![128, 2048]⟩ : Shape).Idx → EReal)
    (bias : (⟨2, ![8, 128]⟩ : Shape).Idx → EReal) : (⟨3, ![4, 1024, 128]⟩ : Shape).Idx → EReal :=
  fun i => outAt h wkv wz bias (i 0) (i 1) (i 2)

theorem out_ix3 (h : (⟨3, ![4, 8192, 2048]⟩ : Shape).Idx → EReal) (wkv wz : (⟨2, ![128, 2048]⟩ : Shape).Idx → EReal)
    (bias : (⟨2, ![8, 128]⟩ : Shape).Idx → EReal) (b : Fin 4) (n : Fin 1024) (k : Fin 128) :
    out h wkv wz bias (ix3 b n k) = outAt h wkv wz bias b n k := rfl

end Cert.Window

end
-- ==== Proof.Body.lean ====
/-
  The kernel body's stored value, read at one element of the output block.

  The body multiplies its [1024, 2048] block of `h` by the fused [2048, 256] weight block (columns 0…127 the value
  weights, columns 128…255 the logit weights), splits the product by columns, regroups the 1024 rows as 128
  windows of 8, adds the bias to the logits, and takes the softmax-weighted sum inside every window.  Here the
  body is cut into those stages, each stage is read at an index, and the whole is `Window.mix` of the window's
  eight logits and eight values — sums over the contraction index of products of block elements.
-/
import proofs.«159110_j70643622085010_2_alg».proof.Proof.Gen.KernelIdeal.Skeleton
import proofs.«159110_j70643622085010_2_alg».proof.Proof.Window
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open Cert.Window (brow srow wrow colL colR)

/-! ## The stages -/

/-- The matrix product's dimension record. -/
abbrev D : DotDims S1024x2048 S2048x256 S1024x256 := dot_S1024x2048_S2048x256_S1024x256_1_0_0_1_n_n

/-- Both projections at once: the block of `h` times the fused weights, accumulated from zero. -/
def fused (v0 : Vec Ideal S1x1024x2048 .f32) (v2 : Vec Ideal S2048x256 .f32) : FVec Ideal S1024x256 .f32 :=
  matmul (φ₁ := .f32) (φ₂ := .f32) dot_S1024x2048_S2048x256_S1024x256_1_0_0_1_n_n (some .fp32)
    (shapeCast S1024x2048 v0 shapeCasts_S1x1024x2048_S1024x2048)
    (shapeCast S2048x256 v2 shapeCasts_S2048x256_S2048x256) (constant S1024x256 .f32 0x00000000#32)

/-- The value half, rows grouped in windows of eight. -/
def vals (y : FVec Ideal S1024x256 .f32) : FVec Ideal S128x8x128 .f32 :=
  shapeCast S128x8x128 (extractStridedSlice S1024x128 ![0, 0] y slices_S1024x256_o0_0_S1024x128) shapeCasts_S1024x128_S128x8x128

/-- The logit half, rows grouped in windows of eight, plus the bias of each window member. -/
def logits (y : FVec Ideal S1024x256 .f32) (v9 : Vec Ideal S8x128 .f32) : FVec Ideal S128x8x128 .f32 :=
  addf (shapeCast S128x8x128 (extractStridedSlice S1024x128 ![0, 128] y slices_S1024x256_o0_128_S1024x128) shapeCasts_S1024x128_S128x8x128)
    (broadcastTo S128x8x128 (shapeCast S1x8x128 v9 shapeCasts_S8x128_S1x8x128) broadcasts_S1x8x128_S128x8x128)

/-- A per-window quantity repeated over the window's eight members. -/
def spread (y : FVec Ideal S128x128 .f32) : FVec Ideal S128x8x128 .f32 :=
  broadcastTo S128x8x128 (shapeCast S128x1x128 y shapeCasts_S128x128_S128x1x128) broadcasts_S128x1x128_S128x8x128

/-- Each window's largest logit. -/
def peaks (z : FVec Ideal S128x8x128 .f32) : FVec Ideal S128x128 .f32 :=
  maximumf (broadcast S128x128 (Scalar.ofBits .f32 0xFF800000#32))
    (multiReduction .maximumf [1] S128x128 z 0xFF800000#32 reduces_S128x8x128_S128x128 (.inl rfl) rfl)

/-- The exponentials of the logits shifted by their window's largest. -/
def exps (z : FVec Ideal S128x8x128 .f32) : FVec Ideal S128x8x128 .f32 := exp (subf z (spread (peaks z)))

/-- Sums over each window's eight members. -/
def sums (e : FVec Ideal S128x8x128 .f32) : FVec Ideal S128x128 .f32 :=
  multiReduction .add [1] S128x128 e 0x00000000#32 reduces_S128x8x128_S128x128 (.inl rfl) rfl

/-- The softmax-weighted sum of the values inside every window, as the block the body stores. -/
def weigh (z c : FVec Ideal S128x8x128 .f32) : FVec Ideal S1x128x128 .f32 :=
  shapeCast S1x128x128 (sums (mulf (divf (exps z) (spread (sums (exps z)))) c)) shapeCasts_S128x128_S1x128x128

/-- The body's stored value is these stages composed. -/
theorem pay_eq (v0 : Vec Ideal S1x1024x2048 .f32) (v2 : Vec Ideal S2048x256 .f32) (v9 : Vec Ideal S8x128 .f32) :
    k0_pay1 (F := Ideal) v0 v2 v9 = weigh (logits (fused v0 v2) v9) (vals (fused v0 v2)) := rfl

/-! ## The matrix product at an index -/

theorem lhs0 (i : S1024x256.Idx) (q : D.contr.Idx) : (D.lhsIdx i q 0).val = (i 0).val := by
  unfold DotDims.lhsIdx
  rw [dif_neg (show ¬(0 : Fin S1024x2048.rank) ∈ D.lhsBatch by decide), dif_pos (show (0 : Fin S1024x2048.rank) ∈ D.lhsNonContracting by decide)]
  rfl
theorem lhs1 (i : S1024x256.Idx) (q : D.contr.Idx) : (D.lhsIdx i q 1).val = (q ⟨0, by decide⟩).val :=
  D.lhsIdx_val_of_single rfl i q
theorem rhs0 (i : S1024x256.Idx) (q : D.contr.Idx) : (D.rhsIdx i q 0).val = (q ⟨0, by decide⟩).val :=
  D.rhsIdx_val_of_single rfl i q
theorem rhs1 (i : S1024x256.Idx) (q : D.contr.Idx) : (D.rhsIdx i q 1).val = (i 1).val := by
  unfold DotDims.rhsIdx
  rw [dif_neg (show ¬(1 : Fin S2048x256.rank) ∈ D.rhsBatch by decide), dif_pos (show (1 : Fin S2048x256.rank) ∈ D.rhsNonContracting by decide)]
  rfl

/-- Element (r, c) of the fused product: row `r` of the block of `h` against column `c` of the weights. -/
theorem fused_apply (v0 : Vec Ideal S1x1024x2048 .f32) (v2 : Vec Ideal S2048x256 .f32) (r : Fin 1024) (c : Fin 256) :
    fused v0 v2 (ix2 r c) = ∑ d : Fin 2048, v0 (ix3 (0 : Fin 1) r d) * v2 (ix2 d c) := by
  unfold fused
  simp only [matmul]
  rw [Ideal.matmul_constant_zero_apply, ← Equiv.sum_comp (contrEquiv1 D 2048 rfl rfl).symm]
  refine Finset.sum_congr rfl fun d _ => ?_
  have hk := contrEquiv1_symm_val D 2048 rfl rfl d
  have el : D.lhsIdx (ix2 r c) ((contrEquiv1 D 2048 rfl rfl).symm d) = ix2 r d := funext fun a => Fin.ext (by
    match a with
    | ⟨0, _⟩ => exact lhs0 _ _
    | ⟨1, _⟩ => exact (lhs1 _ _).trans hk)
  have er : D.rhsIdx (ix2 r c) ((contrEquiv1 D 2048 rfl rfl).symm d) = ix2 d c := funext fun a => Fin.ext (by
    match a with
    | ⟨0, _⟩ => exact (rhs0 _ _).trans hk
    | ⟨1, _⟩ => exact rhs1 _ _)
  rw [el, er, shapeCast_self]
  refine congrArg (· * _) ?_
  exact shapeCast_apply v0 shapeCasts_S1x1024x2048_S1024x2048 (ix2 r d) (ix3 (0 : Fin 1) r d) (by
    rw [Shape.rowMajor_val_three, Shape.rowMajor_val_two]
    show ((0 : Nat) * 1024 + r.val) * 2048 + d.val = r.val * 2048 + d.val
    omega)

/-! ## The layout stages at an index -/

theorem vals_apply (y : FVec Ideal S1024x256 .f32) (p : Fin 128) (j : Fin 8) (k : Fin 128) :
    vals y (ix3 p j k) = y (ix2 (brow p j) (colL k)) := by
  unfold vals
  refine (shapeCast_apply _ shapeCasts_S1024x128_S128x8x128 (ix3 p j k) (ix2 (brow p j) k) ?_).trans ?_
  · rw [Shape.rowMajor_val_two, Shape.rowMajor_val_three]
    show (8 * p.val + j.val) * 128 + k.val = (p.val * 8 + j.val) * 128 + k.val
    omega
  · exact extractStridedSlice_apply ![0, 0] y slices_S1024x256_o0_0_S1024x128 (ix2 (brow p j) k) (ix2 (brow p j) (colL k))
      (fun a => match a with
        | ⟨0, _⟩ => by show 8 * p.val + j.val = 0 + (8 * p.val + j.val); omega
        | ⟨1, _⟩ => by show k.val = 0 + k.val; omega)

theorem logits_apply (y : FVec Ideal S1024x256 .f32) (v9 : Vec Ideal S8x128 .f32) (p : Fin 128) (j : Fin 8) (k : Fin 128) :
    logits y v9 (ix3 p j k) = y (ix2 (brow p j) (colR k)) + v9 (ix2 j k) := by
  unfold logits
  show shapeCast S128x8x128 (extractStridedSlice S1024x128 ![0, 128] y slices_S1024x256_o0_128_S1024x128) shapeCasts_S1024x128_S128x8x128 (ix3 p j k)
      + broadcastTo S128x8x128 (shapeCast S1x8x128 v9 shapeCasts_S8x128_S1x8x128) broadcasts_S1x8x128_S128x8x128 (ix3 p j k) = _
  have e1 : shapeCast S128x8x128 (extractStridedSlice S1024x128 ![0, 128] y slices_S1024x256_o0_128_S1024x128) shapeCasts_S1024x128_S128x8x128 (ix3 p j k)
      = y (ix2 (brow p j) (colR k)) := by
    refine (shapeCast_apply _ shapeCasts_S1024x128_S128x8x128 (ix3 p j k) (ix2 (brow p j) k) ?_).trans ?_
    · rw [Shape.rowMajor_val_two, Shape.rowMajor_val_three]
      show (8 * p.val + j.val) * 128 + k.val = (p.val * 8 + j.val) * 128 + k.val
      omega
    · exact extractStridedSlice_apply ![0, 128] y slices_S1024x256_o0_128_S1024x128 (ix2 (brow p j) k) (ix2 (brow p j) (colR k))
        (fun a => match a with
          | ⟨0, _⟩ => by show 8 * p.val + j.val = 0 + (8 * p.val + j.val); omega
          | ⟨1, _⟩ => by show 128 + k.val = 128 + k.val; rfl)
  have e2 : broadcastTo S128x8x128 (shapeCast S1x8x128 v9 shapeCasts_S8x128_S1x8x128) broadcasts_S1x8x128_S128x8x128 (ix3 p j k)
      = v9 (ix2 j k) := by
    refine (broadcastTo_apply _ broadcasts_S1x8x128_S128x8x128 (ix3 p j k) (ix3 (0 : Fin 1) j k) (fun a => match a with
      | ⟨0, _⟩ => by show 0 = if (1 : Nat) = 1 then 0 else p.val; rw [if_pos rfl]
      | ⟨1, _⟩ => by show j.val = if (8 : Nat) = 1 then 0 else j.val; rw [if_neg (by decide)]
      | ⟨2, _⟩ => by show k.val = if (128 : Nat) = 1 then 0 else k.val; rw [if_neg (by decide)])).trans ?_
    exact shapeCast_apply v9 shapeCasts_S8x128_S1x8x128 (ix3 (0 : Fin 1) j k) (ix2 j k) (by
      rw [Shape.rowMajor_val_two, Shape.rowMajor_val_three]
      show j.val * 128 + k.val = ((0 : Nat) * 8 + j.val) * 128 + k.val
      omega)
  rw [e1, e2]

theorem spread_apply (y : FVec Ideal S128x128 .f32) (p : Fin 128) (j : Fin 8) (k : Fin 128) :
    spread y (ix3 p j k) = y (ix2 p k) := by
  unfold spread
  refine (broadcastTo_apply _ broadcasts_S128x1x128_S128x8x128 (ix3 p j k) (ix3 p (0 : Fin 1) k) (fun a => match a with
    | ⟨0, _⟩ => by show p.val = if (128 : Nat) = 1 then 0 else p.val; rw [if_neg (by decide)]
    | ⟨1, _⟩ => by show 0 = if (1 : Nat) = 1 then 0 else j.val; rw [if_pos rfl]
    | ⟨2, _⟩ => by show k.val = if (128 : Nat) = 1 then 0 else k.val; rw [if_neg (by decide)])).trans ?_
  exact shapeCast_apply y shapeCasts_S128x128_S128x1x128 (ix3 p (0 : Fin 1) k) (ix2 p k) (by
    rw [Shape.rowMajor_val_two, Shape.rowMajor_val_three]
    show p.val * 128 + k.val = (p.val * 1 + 0) * 128 + k.val
    omega)

/-! ## The reductions at an index -/

/-- The index of member `j` of window `p` at coordinate `k`, as the reductions name it. -/
theorem lift_eq (p : Fin 128) (j : Fin 8) (k : Fin 128) :
    reduces_S128x8x128_S128x128.lift (ix2 p k) j = ix3 p j k :=
  funext fun a => Fin.ext (by match a with | ⟨0, _⟩ => rfl | ⟨1, _⟩ => rfl | ⟨2, _⟩ => rfl)

theorem sums_apply (e : FVec Ideal S128x8x128 .f32) (p k : Fin 128) :
    sums e (ix2 p k) = ∑ j : Fin 8, e (ix3 p j k) := by
  unfold sums
  refine (Ideal.multiReduction_add_single e 0x00000000#32 reduces_S128x8x128_S128x128 (.inl rfl) rfl (ix2 p k)).trans ?_
  exact Finset.sum_congr rfl fun j _ => congrArg e (lift_eq p j k)

theorem peaks_apply (z : FVec Ideal S128x8x128 .f32) (p k : Fin 128) :
    peaks z (ix2 p k) = Window.peak (fun j => z (ix3 p j k)) := by
  unfold peaks Window.peak
  show max (Ideal.ofBits .f32 0xFF800000#32)
      (multiReduction .maximumf [1] S128x128 z 0xFF800000#32 reduces_S128x8x128_S128x128 (.inl rfl) rfl (ix2 p k)) = _
  refine congrArg (max _) ?_
  refine (Ideal.multiReduction_maximumf_single z 0xFF800000#32 reduces_S128x8x128_S128x128 (.inl rfl) rfl (ix2 p k)).trans ?_
  have e : (z ∘ reduces_S128x8x128_S128x128.lift (ix2 p k) : Fin 8 → EReal) = fun j => z (ix3 p j k) :=
    funext fun j => congrArg z (lift_eq p j k)
  exact congrArg (fun f : Fin 8 → EReal => (Finset.univ : Finset (Fin 8)).fold max Window.ninf f) e

theorem exps_apply (z : FVec Ideal S128x8x128 .f32) (p : Fin 128) (j : Fin 8) (k : Fin 128) :
    exps z (ix3 p j k) = Window.ex (fun j => z (ix3 p j k)) j := by
  unfold exps Window.ex
  show Ideal.exp (z (ix3 p j k) - spread (peaks z) (ix3 p j k)) = _
  rw [spread_apply, peaks_apply]

/-- The stored block at (0, p, k): the softmax-weighted sum over window `p`. -/
theorem weigh_apply (z c : FVec Ideal S128x8x128 .f32) (p k : Fin 128) :
    weigh z c (ix3 (0 : Fin 1) p k) = Window.mix (fun j => z (ix3 p j k)) (fun j => c (ix3 p j k)) := by
  unfold weigh Window.mix
  refine (shapeCast_apply _ shapeCasts_S128x128_S1x128x128 (ix3 (0 : Fin 1) p k) (ix2 p k) (by
    rw [Shape.rowMajor_val_two, Shape.rowMajor_val_three]
    show p.val * 128 + k.val = ((0 : Nat) * 128 + p.val) * 128 + k.val
    omega)).trans ?_
  rw [sums_apply]
  refine Finset.sum_congr rfl fun j _ => ?_
  show Ideal.div (exps z (ix3 p j k)) (spread (sums (exps z)) (ix3 p j k)) * c (ix3 p j k) = _
  rw [spread_apply, sums_apply, exps_apply]
  refine congrArg (fun s => Ideal.div _ s * _) ?_
  exact Finset.sum_congr rfl fun j' _ => exps_apply z p j' k

/-! ## The body at an index -/

/-- The body's stored value at (0, p, k), over the three loaded blocks. -/
theorem pay_apply (v0 : Vec Ideal S1x1024x2048 .f32) (v2 : Vec Ideal S2048x256 .f32) (v9 : Vec Ideal S8x128 .f32) (p k : Fin 128) :
    k0_pay1 (F := Ideal) v0 v2 v9 (ix3 (0 : Fin 1) p k)
      = Window.mix (fun j => (∑ d : Fin 2048, v0 (ix3 (0 : Fin 1) (brow p j) d) * v2 (ix2 d (colR k))) + v9 (ix2 j k))
          (fun j => ∑ d : Fin 2048, v0 (ix3 (0 : Fin 1) (brow p j) d) * v2 (ix2 d (colL k))) := by
  rw [pay_eq, weigh_apply]
  have ez : (fun j => logits (fused v0 v2) v9 (ix3 p j k))
      = fun j => (∑ d : Fin 2048, v0 (ix3 (0 : Fin 1) (brow p j) d) * v2 (ix2 d (colR k))) + v9 (ix2 j k) :=
    funext fun j => by rw [logits_apply, fused_apply]
  have ec : (fun j => vals (fused v0 v2) (ix3 p j k))
      = fun j => ∑ d : Fin 2048, v0 (ix3 (0 : Fin 1) (brow p j) d) * v2 (ix2 d (colL k)) :=
    funext fun j => by rw [vals_apply, fused_apply]
  rw [ez, ec]

/-! ## A block of the output is a block of `Window.out` -/

/-- Two [1, 128, 128] blocks agree when they agree at every (0, p, k). -/
theorem block_ext {f g : S1x128x128.Idx → EReal} (h : ∀ p k : Fin 128, f (ix3 (0 : Fin 1) p k) = g (ix3 (0 : Fin 1) p k)) : f = g :=
  funext fun y => by
    obtain ⟨y0, p, k, rfl⟩ : ∃ (y0 : Fin 1) (p k : Fin 128), y = ix3 y0 p k := ⟨y 0, y 1, y 2, eq_ix3 y⟩
    obtain rfl : y0 = 0 := Subsingleton.elim _ _
    exact h p k

/-- When the three loaded blocks are what the grid point (bi, si) stages — rows `1024 si …` of batch `bi` of `H`, the two
    weight matrices transposed side by side, the bias — the stored block at (0, p, k) is the result at
    (bi, 128 si + p, k). -/
theorem block_eq (H : (⟨3, ![4, 8192, 2048]⟩ : Shape).Idx → EReal) (WKV WZ : (⟨2, ![128, 2048]⟩ : Shape).Idx → EReal)
    (B : (⟨2, ![8, 128]⟩ : Shape).Idx → EReal)
    (x0 : Vec Ideal S1x1024x2048 .f32) (x1 : Vec Ideal S2048x256 .f32) (x2 : Vec Ideal S8x128 .f32) (bi : Fin 4) (si : Fin 8)
    (h0 : ∀ (r : Fin 1024) (d : Fin 2048), x0 (ix3 (0 : Fin 1) r d) = H (ix3 bi (srow si r) d))
    (h1L : ∀ (d : Fin 2048) (k : Fin 128), x1 (ix2 d (colL k)) = WKV (ix2 k d))
    (h1R : ∀ (d : Fin 2048) (k : Fin 128), x1 (ix2 d (colR k)) = WZ (ix2 k d))
    (h2 : ∀ (j : Fin 8) (k : Fin 128), x2 (ix2 j k) = B (ix2 j k)) (p k : Fin 128) :
    k0_pay1 (F := Ideal) x0 x1 x2 (ix3 (0 : Fin 1) p k) = Window.out H WKV WZ B (ix3 bi (wrow si p) k) := by
  rw [pay_apply, Window.out_ix3]
  unfold Window.outAt Window.proj
  simp only [h0, h1L, h1R, h2, Window.row_wrow]

end Cert.KernelIdeal.Body

end
-- ==== Proof.Weights.lean ====
/-
  The fused weight matrix the kernel is launched with, and its two halves.

  Before the kernel runs, the host transposes both [128, 2048] weight matrices and sets them side by side as the
  columns of one [2048, 256] matrix.  Element (d, k) of it is `w_kv[k, d]` for k < 128, and element (d, 128 + k) is
  `w_z[k, d]`.
-/
import proofs.«159110_j70643622085010_2_alg».proof.Proof.Gen.KernelIdeal.Frame
import proofs.«159110_j70643622085010_2_alg».proof.Proof.Window
import Idealize.ShloMosaic.Lib.Pipeline.Value
import Idealize.ShloMosaic.Lib.StableHlo.Run
import Idealize.ShloMosaic.Lib.ValueIdx

noncomputable section

namespace Cert.KernelIdeal.Weights

open Cert.KernelIdeal Cert.KernelIdeal.Gen Idealize.ShloMosaic Idealize.ShloMosaic.TcCoe Idealize.SL.Sem
open Idealize.ShloMosaic.ValueIdx Idealize.ShloMosaic.StableHlo
open Cert.Window (colL colR)

/-- Two [128, 2048] matrices transposed and set side by side. -/
def sideBySide (a b : FVec Ideal S128x2048 .f32) : FVec Ideal S2048x256 .f32 :=
  concatenate S2048x256 1
    [⟨S2048x128, transpose S2048x128 [1, 0] a transposes_S128x2048_S2048x128_1_0⟩,
     ⟨S2048x128, transpose S2048x128 [1, 0] b transposes_S128x2048_S2048x128_1_0⟩]
    concatenates_S2048x128_S2048x128_S2048x256_d1

/-- The left half reads the first matrix, transposed. -/
theorem sideBySide_left (a b : FVec Ideal S128x2048 .f32) (d : Fin 2048) (k : Fin 128) :
    sideBySide a b (ix2 d (colL k)) = a (ix2 k d) := by
  unfold sideBySide
  refine (concatenate_pair_apply_left (t := S2048x256) (s₁ := S2048x128) (s₂ := S2048x128) (1 : Fin 2)
    (transpose S2048x128 [1, 0] a transposes_S128x2048_S2048x128_1_0) (transpose S2048x128 [1, 0] b transposes_S128x2048_S2048x128_1_0)
    concatenates_S2048x128_S2048x128_S2048x256_d1 (ix2 d (colL k)) (rfl : (2 : Nat) = 2) (ix2 d k)
    (fun b => match b with | ⟨0, _⟩ => rfl | ⟨1, _⟩ => rfl)).trans ?_
  exact transpose_apply [1, 0] a transposes_S128x2048_S2048x128_1_0 (ix2 d k) (ix2 k d)
    (fun b => match b with | ⟨0, _⟩ => rfl | ⟨1, _⟩ => rfl)

/-- The right half reads the second matrix, transposed. -/
theorem sideBySide_right (a b : FVec Ideal S128x2048 .f32) (d : Fin 2048) (k : Fin 128) :
    sideBySide a b (ix2 d (colR k)) = b (ix2 k d) := by
  unfold sideBySide
  refine (concatenate_pair_apply_right (t := S2048x256) (s₁ := S2048x128) (s₂ := S2048x128) (1 : Fin 2)
    (transpose S2048x128 [1, 0] a transposes_S128x2048_S2048x128_1_0) (transpose S2048x128 [1, 0] b transposes_S128x2048_S2048x128_1_0)
    concatenates_S2048x128_S2048x128_S2048x256_d1 (ix2 d (colR k)) (rfl : (2 : Nat) = 2) (rfl : (2 : Nat) = 2) (ix2 d k)
    (fun b hb => match b, hb with
      | ⟨0, _⟩, _ => rfl
      | ⟨1, _⟩, hb => absurd rfl hb)
    (by show k.val + 128 = 128 + k.val; omega)).trans ?_
  exact transpose_apply [1, 0] b transposes_S128x2048_S2048x128_1_0 (ix2 d k) (ix2 k d)
    (fun b => match b with | ⟨0, _⟩ => rfl | ⟨1, _⟩ => rfl)

variable (m : (ℓ : Loc nD τ sig) → Buf (Elt Ideal) ℓ)

/-- What the kernel finds in its second operand: the two weight arguments side by side. -/
theorem V_fused (c : Dev nD) :
    (V m c main_v2 : S2048x256.Idx → EReal)
      = sideBySide (m ((c : Thread nD τ).loc main_arg1)) (m ((c : Thread nD τ).loc main_arg2)) := by
  dsimp only [Gen.V, Gen.hostOps0]
  after_results
  rfl

end Cert.KernelIdeal.Weights

end
-- ==== Proof.Blocks.lean ====
/-
  From what each grid point writes back to the whole result array.

  Grid point t = (bi, si) stages rows `1024 si …` of batch `bi` of `h`, the whole fused weight matrix and the whole
  bias, and writes back the [1, 128, 128] block at (bi, 128 si, 0) of the result.  That block is a block of
  `Window.out` of the four arguments (the body's value at an index, `Body.block_eq`), the 32 blocks tile the
  [4, 1024, 128] result, so the array after the run is `Window.out` of the arguments.
-/
import proofs.«159110_j70643622085010_2_alg».proof.Proof.Gen.KernelIdeal.Value
import proofs.«159110_j70643622085010_2_alg».proof.Proof.Body
import proofs.«159110_j70643622085010_2_alg».proof.Proof.Weights
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Window (brow srow wrow colL colR)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The result array as a function of the launch memory's four arguments. -/
abbrev result (c : Dev nD) : Buf (Elt Ideal) ((c : Thread nD τ).loc main_v3) :=
  Window.out (m ((c : Thread nD τ).loc main_arg0)) (m ((c : Thread nD τ).loc main_arg1))
    (m ((c : Thread nD τ).loc main_arg2)) (m ((c : Thread nD τ).loc main_arg3))

/-! ## Which block each window holds at a grid point -/

/-- The block indices, decided over the 32 grid points: the block of `h` moves with the output block, the weights and
    the bias stay whole, and the output block's index is (bi, si, 0) with bi < 4, si < 8. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) < 4 ∧ win0_3.index t (1 : Fin 3) < 8 ∧ win0_3.index t (2 : Fin 3) = 0 :=
  (by decide +kernel : ∀ t : Fin grid0.N, _)

/-- Every block (bi, si, 0) of the result is some grid point's. -/
theorem index_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-! ## The staged blocks, read at an index -/

/-- The staged block of `h` at point (bi, si): row `r` is sequence position `1024 si + r` of batch `bi`. -/
theorem h_block (c : Dev nD) (t : Fin cfg0.N) (bi : Fin 4) (si : Fin 8)
    (e0 : win0_0.index t (0 : Fin 3) = bi.val) (e1 : win0_0.index t (1 : Fin 3) = si.val) (e2 : win0_0.index t (2 : Fin 3) = 0)
    (r : Fin 1024) (d : Fin 2048) :
    (iblk m c 0 t : Vec Ideal S1x1024x2048 .f32) (ix3 (0 : Fin 1) r d)
      = (m ((c : Thread nD τ).loc main_arg0) : S4x8192x2048.Idx → EReal) (ix3 bi (srow si r) d) := by
  unfold iblk
  rw [View.read_apply]
  show V m c main_arg0 _ = _
  rw [V_main_arg0]
  refine congrArg (m ((c : Thread nD τ).loc main_arg0) : S4x8192x2048.Idx → EReal) (funext fun a => Fin.ext ?_)
  match a with
  | ⟨0, _⟩ => show win0_0.index t (0 : Fin 3) * 1 + 1 * 0 = bi.val; omega
  | ⟨1, _⟩ => show win0_0.index t (1 : Fin 3) * 1024 + 1 * r.val = si.val * 1024 + r.val; omega
  | ⟨2, _⟩ => show win0_0.index t (2 : Fin 3) * 2048 + 1 * d.val = d.val; omega

/-- The staged weights are the whole fused matrix. -/
theorem w_block (c : Dev nD) (t : Fin cfg0.N)
    (e0 : win0_1.index t (0 : Fin 2) = 0) (e1 : win0_1.index t (1 : Fin 2) = 0) (d : Fin 2048) (q : Fin 256) :
    (iblk m c 1 t : Vec Ideal S2048x256 .f32) (ix2 d q)
      = Weights.sideBySide (m ((c : Thread nD τ).loc main_arg1)) (m ((c : Thread nD τ).loc main_arg2)) (ix2 d q) := by
  unfold iblk
  rw [View.read_apply]
  show (V m c main_v2 : S2048x256.Idx → EReal) _ = _
  rw [Weights.V_fused]
  refine congrArg (Weights.sideBySide _ _) (funext fun a => Fin.ext ?_)
  match a with
  | ⟨0, _⟩ => show win0_1.index t (0 : Fin 2) * 2048 + 1 * d.val = d.val; omega
  | ⟨1, _⟩ => show win0_1.index t (1 : Fin 2) * 256 + 1 * q.val = q.val; omega

/-- The staged bias is the whole bias. -/
theorem b_block (c : Dev nD) (t : Fin cfg0.N)
    (e0 : win0_2.index t (0 : Fin 2) = 0) (e1 : win0_2.index t (1 : Fin 2) = 0) (j : Fin 8) (k : Fin 128) :
    (iblk m c 2 t : Vec Ideal S8x128 .f32) (ix2 j k)
      = (m ((c : Thread nD τ).loc main_arg3) : S8x128.Idx → EReal) (ix2 j k) := by
  unfold iblk
  rw [View.read_apply]
  show V m c main_arg3 _ = _
  rw [V_main_arg3]
  refine congrArg (m ((c : Thread nD τ).loc main_arg3) : S8x128.Idx → EReal) (funext fun a => Fin.ext ?_)
  match a with
  | ⟨0, _⟩ => show win0_2.index t (0 : Fin 2) * 8 + 1 * j.val = j.val; omega
  | ⟨1, _⟩ => show win0_2.index t (1 : Fin 2) * 128 + 1 * k.val = k.val; omega

/-! ## What a point writes back -/

/-- Point `t` writes back block `t` of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zeros3]
  simp only [View.ld_unit_zero (S := S1x1024x2048) zeros3, View.ld_unit_zero (S := S2048x256) zeros2,
    View.ld_unit_zero (S := S8x128) zeros2]
  obtain ⟨e00, e01, e02, e10, e11, e20, e21, hb, hs, e32⟩ := index_facts t
  refine Body.block_ext fun p k => ?_
  show k0_pay1 (F := Ideal) (iblk m c 0 t) (iblk m c 1 t) (iblk m c 2 t) (ix3 (0 : Fin 1) p k)
      = result m c (((cfg0.win 3).blk t).view.emb (ix3 (0 : Fin 1) p k))
  have hemb : ((cfg0.win 3).blk t).view.emb (ix3 (0 : Fin 1) p k)
      = (ix3 (⟨win0_3.index t (0 : Fin 3), hb⟩ : Fin 4) (wrow ⟨win0_3.index t (1 : Fin 3), hs⟩ p) k : S4x1024x128.Idx) :=
    funext fun a => Fin.ext (by
      match a with
      | ⟨0, _⟩ => show win0_3.index t (0 : Fin 3) * 1 + 1 * 0 = win0_3.index t (0 : Fin 3); omega
      | ⟨1, _⟩ => show win0_3.index t (1 : Fin 3) * 128 + 1 * p.val = win0_3.index t (1 : Fin 3) * 128 + p.val; omega
      | ⟨2, _⟩ => show win0_3.index t (2 : Fin 3) * 128 + 1 * k.val = k.val; omega)
  rw [hemb]
  exact Body.block_eq _ _ _ _ (iblk m c 0 t) (iblk m c 1 t) (iblk m c 2 t) ⟨win0_3.index t (0 : Fin 3), hb⟩ ⟨win0_3.index t (1 : Fin 3), hs⟩
    (fun r d => h_block m c t _ _ e00 e01 e02 r d)
    (fun d k' => (w_block m c t e10 e11 d (colL k')).trans (Weights.sideBySide_left _ _ d k'))
    (fun d k' => (w_block m c t e10 e11 d (colR k')).trans (Weights.sideBySide_right _ _ d k'))
    (fun j k' => b_block m c t e20 e21 j k') p k

/-! ## The blocks tile the result -/

/-- An index of the result is in point `t`'s block iff each coordinate is in the block's range on its axis. -/
theorem mem_blk (t : Fin cfg0.N) (i : S4x1024x128.Idx) :
    i ∈ ((cfg0.win 3).blk t).view.set ↔ ∀ a : Fin 3, win0_3.index t a * S1x128x128.size a ≤ (i a).val
      ∧ (i a).val < win0_3.index t a * S1x128x128.size a + S1x128x128.size a := by
  show i ∈ ((View.whole main_v3).slice (win0_3.rect t)).set ↔ _
  rw [View.set_slice_whole, Rect.mem_set_unit]
  exact Iff.rfl

/-- Every index of the result is in the block of the point (i₀, i₁ / 128). -/
theorem cover (i : S4x1024x128.Idx) :
    ∃ t : Fin cfg0.N, (cfg0.win 3).flush t = true ∧ i ∈ ((cfg0.win 3).blk t).view.set := by
  have hi0 : (i 0).val < 4 := (i 0).isLt
  have hi1 : (i 1).val < 1024 := (i 1).isLt
  have hi2 : (i 2).val < 128 := (i 2).isLt
  obtain ⟨t, ht⟩ := index_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 128 ≤ (i 2).val ∧ (i 2).val < win0_3.index t (2 : Fin 3) * 128 + 128; omega

/-- The result array after the run. -/
theorem final (c : Dev nD) : (dats m 0 c).arrAt 3 cfg0.N = result m c :=
  (dats m 0 c).arrAt_eq_of_cover 3 (result m c) (fun t _ => flushed_eq m c t) cover

/-! ## The run, read -/

/-- Every weakly fair execution of the kernel's program ends with the result array at `Window.out` of the four
    arguments, and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefWindow.lean ====
/-
  The reference program's result, read at an index, is `Window.out` of its four arguments.

  The reference projects all of `h` by each weight matrix, regroups the 8192 positions as 1024 windows of 8, adds
  the bias, and takes jax's softmax over the window axis followed by the weighted sum.  Each stage is read at
  the coordinates (b, n, j, k) — batch, window, member, head coordinate — from the stage before it.
-/
import proofs.«159110_j70643622085010_2_alg».proof.Proof.Gen.ReferenceIdeal.Read
import proofs.«159110_j70643622085010_2_alg».proof.Proof.Window
import Idealize.ShloMosaic.PureOps.Reduce

noncomputable section

namespace Cert.ReferenceIdeal.Hand

open Cert.ReferenceIdeal Cert.ReferenceIdeal.Gen Cert.ReferenceIdeal.Read Idealize.ShloMosaic Idealize.ShloMosaic.ValueIdx

variable (x0 : (⟨S4x8192x2048, .f32⟩ : BufTy).Contents (Elt Ideal)) (x1 x2 : (⟨S128x2048, .f32⟩ : BufTy).Contents (Elt Ideal))
  (x3 : (⟨S8x128, .f32⟩ : BufTy).Contents (Elt Ideal))

/-! ## Where each layout stage reads -/

/-- Regrouping positions as windows: element (b, n, j, k) of the regrouped array is element (b, 8n + j, k). -/
theorem regroup (b : Fin 4) (n : Fin 1024) (j : Fin 8) (k : Fin 128) :
    idx_main_v3 (ix4 b n j k) = ix3 b (Window.row n j) k :=
  funext fun a => Fin.ext (by
    have hb := b.isLt; have hn := n.isLt; have hj := j.isLt; have hk := k.isLt
    match a with
    | ⟨0, _⟩ => show (((b.val * 1024 + n.val) * 8 + j.val) * 128 + k.val) / 1048576 = b.val; omega
    | ⟨1, _⟩ => show (((b.val * 1024 + n.val) * 8 + j.val) * 128 + k.val) / 128 % 8192 = 8 * n.val + j.val; omega
    | ⟨2, _⟩ => show (((b.val * 1024 + n.val) * 8 + j.val) * 128 + k.val) % 128 = k.val; omega)

theorem regroup' (b : Fin 4) (n : Fin 1024) (j : Fin 8) (k : Fin 128) :
    idx_main_v2 (ix4 b n j k) = ix3 b (Window.row n j) k :=
  funext fun a => Fin.ext (by
    have hb := b.isLt; have hn := n.isLt; have hj := j.isLt; have hk := k.isLt
    match a with
    | ⟨0, _⟩ => show (((b.val * 1024 + n.val) * 8 + j.val) * 128 + k.val) / 1048576 = b.val; omega
    | ⟨1, _⟩ => show (((b.val * 1024 + n.val) * 8 + j.val) * 128 + k.val) / 128 % 8192 = 8 * n.val + j.val; omega
    | ⟨2, _⟩ => show (((b.val * 1024 + n.val) * 8 + j.val) * 128 + k.val) % 128 = k.val; omega)

theorem bias_idx (b : Fin 4) (n : Fin 1024) (j : Fin 8) (k : Fin 128) :
    idx_main_v4 (idx_main_v5 (ix4 b n j k)) = ix2 j k :=
  funext fun a => Fin.ext (by match a with | ⟨0, _⟩ => rfl | ⟨1, _⟩ => rfl)

theorem peak_idx (b : Fin 4) (n : Fin 1024) (j : Fin 8) (k : Fin 128) :
    idx_main_v10 (idx_main_v11 (ix4 b n j k)) = ix3 b n k :=
  funext fun a => Fin.ext (by match a with | ⟨0, _⟩ => rfl | ⟨1, _⟩ => rfl | ⟨2, _⟩ => rfl)

theorem total_idx (b : Fin 4) (n : Fin 1024) (j : Fin 8) (k : Fin 128) :
    idx_main_v15 (idx_main_v16 (ix4 b n j k)) = ix3 b n k :=
  funext fun a => Fin.ext (by match a with | ⟨0, _⟩ => rfl | ⟨1, _⟩ => rfl | ⟨2, _⟩ => rfl)

theorem member14 (b : Fin 4) (n : Fin 1024) (j : Fin 8) (k : Fin 128) :
    idx_main_v14 (ix3 b n k) j = ix4 b n j k :=
  funext fun a => Fin.ext (by match a with | ⟨0, _⟩ => rfl | ⟨1, _⟩ => rfl | ⟨2, _⟩ => rfl | ⟨3, _⟩ => rfl)

theorem member19 (b : Fin 4) (n : Fin 1024) (j : Fin 8) (k : Fin 128) :
    idx_main_v19 (ix3 b n k) j = ix4 b n j k :=
  funext fun a => Fin.ext (by match a with | ⟨0, _⟩ => rfl | ⟨1, _⟩ => rfl | ⟨2, _⟩ => rfl | ⟨3, _⟩ => rfl)

/-- The window axis is the one the reductions drop. -/
theorem windowAxis : S4x1024x8x128.Reduces [2] S4x1024x128 := by decide

theorem member_lift (b : Fin 4) (n : Fin 1024) (j : Fin 8) (k : Fin 128) :
    windowAxis.lift (ix3 b n k) j = ix4 b n j k :=
  funext fun a => Fin.ext (by match a with | ⟨0, _⟩ => rfl | ⟨1, _⟩ => rfl | ⟨2, _⟩ => rfl | ⟨3, _⟩ => rfl)

/-! ## The projections -/

theorem logitProj_at (b : Fin 4) (s : Fin 8192) (k : Fin 128) :
    val_main_v1 (F := Ideal) x0 x2 (ix3 b s k) = Window.proj x0 x2 b s k := by
  rw [val_main_v1_apply]
  unfold Window.proj
  refine Finset.sum_congr rfl fun d _ => ?_
  have el : lidx_main_v1 (ix3 b s k) d = ix3 b s d :=
    funext fun a => Fin.ext (by match a with | ⟨0, _⟩ => rfl | ⟨1, _⟩ => rfl | ⟨2, _⟩ => rfl)
  have er : ridx_main_v1 (ix3 b s k) d = ix2 k d :=
    funext fun a => Fin.ext (by match a with | ⟨0, _⟩ => rfl | ⟨1, _⟩ => rfl)
  rw [el, er]

theorem valueProj_at (b : Fin 4) (s : Fin 8192) (k : Fin 128) :
    val_main_v0 (F := Ideal) x0 x1 (ix3 b s k) = Window.proj x0 x1 b s k := by
  rw [val_main_v0_apply]
  unfold Window.proj
  refine Finset.sum_congr rfl fun d _ => ?_
  have el : lidx_main_v0 (ix3 b s k) d = ix3 b s d :=
    funext fun a => Fin.ext (by match a with | ⟨0, _⟩ => rfl | ⟨1, _⟩ => rfl | ⟨2, _⟩ => rfl)
  have er : ridx_main_v0 (ix3 b s k) d = ix2 k d :=
    funext fun a => Fin.ext (by match a with | ⟨0, _⟩ => rfl | ⟨1, _⟩ => rfl)
  rw [el, er]

/-! ## The stages of the softmax, window by window -/

/-- The logits of window (b, n) at head coordinate k. -/
abbrev Z (b : Fin 4) (n : Fin 1024) (k : Fin 128) : Fin 8 → EReal :=
  fun j => Window.proj x0 x2 b (Window.row n j) k + x3 (ix2 j k)

theorem logit_at (b : Fin 4) (n : Fin 1024) (j : Fin 8) (k : Fin 128) :
    val_main_v6 (F := Ideal) x0 x2 x3 (ix4 b n j k) = Z x0 x2 x3 b n k j := by
  rw [val_main_v6_apply, val_main_v3_apply, val_main_v5_apply, val_main_v4_apply, regroup, bias_idx, logitProj_at]
  rfl

theorem value_at (b : Fin 4) (n : Fin 1024) (j : Fin 8) (k : Fin 128) :
    val_main_v2 (F := Ideal) x0 x1 (ix4 b n j k) = Window.proj x0 x1 b (Window.row n j) k := by
  rw [val_main_v2_apply, regroup', valueProj_at]

theorem peak_at (b : Fin 4) (n : Fin 1024) (k : Fin 128) :
    val_main_v9 (F := Ideal) x0 x2 x3 (ix3 b n k) = Window.peak (Z x0 x2 x3 b n k) := by
  rw [val_main_v9_apply, val_main_v8_apply, val_main_cst_0_apply]
  unfold Window.peak
  show max (Ideal.ofBits .f32 0xFF800000#32) (val_main_v7 (F := Ideal) x0 x2 x3 (ix3 b n k)) = _
  refine congrArg (max _) ?_
  unfold val_main_v7
  refine (Host.reduce_eq_fold_single (FloatOps.maximumf (F := Ideal) (φ := .f32)) (val_main_v6 (F := Ideal) x0 x2 x3) (val_main_cst (F := Ideal))
    reducesTo_S4x1024x8x128_S4x1024x128_d2 windowAxis h_S_ (ix3 b n k)).trans ?_
  show (Finset.univ : Finset (Fin 8)).fold max Window.ninf (val_main_v6 (F := Ideal) x0 x2 x3 ∘ windowAxis.lift (ix3 b n k)) = _
  have e : (val_main_v6 (F := Ideal) x0 x2 x3 ∘ windowAxis.lift (ix3 b n k) : Fin 8 → EReal) = Z x0 x2 x3 b n k :=
    funext fun j => (congrArg (val_main_v6 (F := Ideal) x0 x2 x3) (member_lift b n j k)).trans (logit_at x0 x2 x3 b n j k)
  exact congrArg (fun f : Fin 8 → EReal => (Finset.univ : Finset (Fin 8)).fold max Window.ninf f) e

theorem exp_at (b : Fin 4) (n : Fin 1024) (j : Fin 8) (k : Fin 128) :
    val_main_v13 (F := Ideal) x0 x2 x3 (ix4 b n j k) = Window.ex (Z x0 x2 x3 b n k) j := by
  rw [val_main_v13_apply, val_main_v12_apply, val_main_v11_apply, val_main_v10_apply, peak_idx, peak_at, logit_at]
  rfl

theorem total_at (b : Fin 4) (n : Fin 1024) (k : Fin 128) :
    val_main_v14 (F := Ideal) x0 x2 x3 (ix3 b n k) = ∑ j : Fin 8, Window.ex (Z x0 x2 x3 b n k) j := by
  rw [val_main_v14_apply, val_main_cst_1_apply]
  show Ideal.ofBits .f32 0x00000000#32 + _ = _
  rw [Ideal.ofBits_zero_f32, zero_add]
  exact Finset.sum_congr rfl fun j _ => by rw [member14, exp_at]

theorem out_at (b : Fin 4) (n : Fin 1024) (k : Fin 128) :
    val_main_v19 (F := Ideal) x0 x1 x2 x3 (ix3 b n k) = Window.outAt x0 x1 x2 x3 b n k := by
  rw [val_main_v19_apply, val_main_cst_2_apply]
  show Ideal.ofBits .f32 0x00000000#32 + _ = _
  rw [Ideal.ofBits_zero_f32, zero_add]
  unfold Window.outAt Window.mix
  refine Finset.sum_congr rfl fun j _ => ?_
  rw [member19, val_main_v18_apply, val_main_v17_apply, val_main_v16_apply, val_main_v15_apply, total_idx, total_at, exp_at, value_at]
  rfl

/-- The reference's result array is `Window.out` of its arguments. -/
theorem result_eq : val_main_v19 (F := Ideal) x0 x1 x2 x3 = Window.out x0 x1 x2 x3 := by
  funext i
  obtain ⟨b, n, k, rfl⟩ : ∃ (b : Fin 4) (n : Fin 1024) (k : Fin 128), i = ix3 b n k := ⟨i 0, i 1, i 2, eq_ix3 i⟩
  exact out_at x0 x1 x2 x3 b n k

end Cert.ReferenceIdeal.Hand

end
-- ==== Proof.lean ====
/-
  Windowed softmax compression: the tiled kernel against the whole-array reference, over the extended reals.

  Both programs take `h` [4, 8192, 2048], two weight matrices `w_kv`, `w_z` [128, 2048] and a bias [8, 128], and
  return, for every batch b, window n of eight consecutive positions and head coordinate k,
      out[b, n, k] = Σ_j softmax_j(z) · c j,   c j = Σ_d h[b, 8n+j, d] · w_kv[k, d],
                                                z j = Σ_d h[b, 8n+j, d] · w_z[k, d] + bias[j, k],
  the softmax taken with the window's maximum subtracted (`Window.out`, Proof/Window.lean).

  The kernel computes both projections as one product against the two weight matrices transposed and set side by
  side (Proof/Weights.lean), on 32 tiles of 128 whole windows each; its stored tile, read at an index, is `Window.out`
  there (Proof/Body.lean), and the tiles fill the result (Proof/Blocks.lean).  The reference computes the two
  projections separately over the whole arrays and applies the same softmax and weighted sum; read at an index it is
  `Window.out` as well (Proof/RefWindow.lean).  No law of arithmetic beyond `0 + x = x` is needed: on the extended
  reals the two programs perform the same operations on the same numbers, so the inputs' finiteness is not used.
  The kernel's idealization rewrote nothing, so it preserves the kernel trivially.
-/
import proofs.«159110_j70643622085010_2_alg».proof.Defs
import proofs.«159110_j70643622085010_2_alg».proof.Proof.Gen.Kernel
import proofs.«159110_j70643622085010_2_alg».proof.Proof.Gen.Kernel.Skeleton
import proofs.«159110_j70643622085010_2_alg».proof.Proof.Gen.Kernel.Launch
import proofs.«159110_j70643622085010_2_alg».proof.Proof.Gen.Kernel.Points
import proofs.«159110_j70643622085010_2_alg».proof.Proof.Gen.Kernel.Frame
import proofs.«159110_j70643622085010_2_alg».proof.Proof.Gen.KernelIdeal
import proofs.«159110_j70643622085010_2_alg».proof.Proof.Gen.KernelIdeal.Skeleton
import proofs.«159110_j70643622085010_2_alg».proof.Proof.Gen.KernelIdeal.Launch
import proofs.«159110_j70643622085010_2_alg».proof.Proof.Gen.KernelIdeal.Points
import proofs.«159110_j70643622085010_2_alg».proof.Proof.Gen.KernelIdeal.Frame
import proofs.«159110_j70643622085010_2_alg».proof.Proof.Gen.ReferenceIdeal
import proofs.«159110_j70643622085010_2_alg».proof.Proof.Gen.Pre_finite_inputs
import proofs.«159110_j70643622085010_2_alg».proof.Proof.Gen.KernelIdeal.Value
import proofs.«159110_j70643622085010_2_alg».proof.Proof.Gen.ReferenceIdeal.Run
import proofs.«159110_j70643622085010_2_alg».proof.Proof.Gen.ReferenceIdeal.Read
import proofs.«159110_j70643622085010_2_alg».proof.Proof.Blocks
import proofs.«159110_j70643622085010_2_alg».proof.Proof.RefWindow
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run with the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- From memories agreeing on the four arguments both programs end with both results at `Window.out` of the arguments. -/
theorem algebraic : Cert.algebraic_KernelIdeal_ReferenceIdeal := by
  intro m ρ m' ρ' _ hagree
  refine ⟨fun c => Cert.KernelIdeal.Blocks.result m c, fun c => Cert.KernelIdeal.Blocks.result m c, ?_, ?_⟩
  · exact (θ_run Cert.KernelIdeal.defs _ _).mono (fun _ h c => ⟨(h c).1, (h c).1, (h c).2⟩)
      (Cert.KernelIdeal.Blocks.run m ρ)
  · refine (θ_run Cert.ReferenceIdeal.defs _ _).mono (fun _ h c => ?_) (Cert.ReferenceIdeal.Value.run (F := Ideal) m' ρ')
    have e := ((h c).1.trans (Cert.ReferenceIdeal.Read.val_main_v19_eq _ _ _ _)).trans
      (Cert.ReferenceIdeal.Hand.result_eq _ _ _ _)
    rw [(hagree c).1, (hagree c).2.1, (hagree c).2.2.1, (hagree c).2.2.2] at e
    exact ⟨e, e, (h c).2.2⟩

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
